-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x40, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x1, .f32⟩
  | .hbm, ⟨78, _⟩ => ⟨S1700000x40, .f32⟩
  | .hbm, ⟨79, _⟩ => ⟨S1700000x40, .f32⟩
  | .hbm, ⟨80, _⟩ => ⟨S_, .f32⟩
  | .hbm, ⟨81, _⟩ => ⟨S100000x40, .f32⟩
  | .hbm, ⟨82, _⟩ => ⟨S1700000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x40, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x40, .f32⟩
  | .hbm, ⟨82, _⟩ => ⟨S1700000x1, .f32⟩
  | .hbm, ⟨83, _⟩ => ⟨S1700000x40, .f32⟩
  | .hbm, ⟨84, _⟩ => ⟨S1700000x40, .f32⟩
  | .hbm, ⟨85, _⟩ => ⟨S_, .f32⟩
  | .hbm, ⟨86, _⟩ => ⟨S100000x40, .f32⟩
  | .hbm, ⟨87, _⟩ => ⟨S1700000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibAfter.lean ====
/-
  Two general facts about a list of host operations run as a fold over buffer contents.
-/
import Idealize.ShloMosaic.Lib.StableHlo.Run

namespace Cert.Lib

open Idealize.ShloMosaic Idealize.ShloMosaic.StableHlo

variable {τ : Topo} {sig : RefSig} {Val : EltTy → Type}

/-- The fold of a concatenation of two operation lists is the second list's fold over the first's: the operations run
    in order, so splitting the list anywhere splits the run there. -/
theorem after_append (l₁ l₂ : List (HloOp τ sig Val)) (X : Valuation τ sig Val) :
    after (l₁ ++ l₂) X = after l₂ (after l₁ X) := by
  induction l₁ generalizing X with
  | nil => rfl
  | cons op l ih => exact ih (op.result X)

/-- A typed reference's view of a buffer's contents undoes its own embedding: reading back what was written through the
    same typed reference is the identity. -/
theorem ofBuf_toBuf {T : BufTy} (x : TRef sig T) (v : T.Contents Val) : x.ofBuf (x.toBuf v) = v := by
  obtain ⟨ref, hty, hd, hu⟩ := x
  subst hty
  rfl

end Cert.Lib
-- ==== Proof.KernelRun.lean ====
/-
  The idealized kernel's run with its result NAMED. The generated frame certificate runs @main as eight segments (five
  stretches of host operations and the three kernel regions) and ends with every unscoped buffer of a core holding the
  last boundary's contents `W8`; it reads only the six argument arrays back. Here the same launch is read at one more
  buffer: the result array `main_v62` ends at `W8 m ρ c main_v62`, the fold of the segments from the launch memory. What that
  fold IS, as a function of the arguments, is the business of the modules that follow.
-/
import proofs.«153946_j34445637714219_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the six argument arrays as launched. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.Spec.lean ====
/-
  The three dense stages of a two-layer graph convolution over 100000 nodes, each as ONE function of whole arrays, index by
  index over the extended reals. Between the stages both programs run the same gather / scale / scatter-add of rows along the
  edge list, so these three functions are all that the kernel and the reference spell differently:

  * `dense1 x w`  — the matrix product x · w: entry (r, j) is the sum over k of x[r, k] · w[k, j];
  * `dense2 a b w` — relu (a + b) · w with the bias b laid along every row: entry (r, j) is the sum over k of
    max (a[r, k] + b[k]) 0 · w[k, j];
  * `logsm a b`   — the row-wise log-softmax of a + b: with v = a[r, ·] + b and M the maximum of v (a fold of `max` from
    −∞ over the row), entry (r, j) is (v[j] − M) − log (Σ_k exp (v[k] − M)).

  Every entry of a result depends on ONE row of the row-blocked operand (and on all of the small operands), which is why a
  kernel that computes a block of rows at a time computes the same array.
-/
import Idealize.ShloMosaic.PureOps.Ideal
import Idealize.ShloMosaic.Lib.ValueIdx

noncomputable section

namespace Cert.Gcn

open Idealize.ShloMosaic Idealize.ShloMosaic.ValueIdx

/-- The word of the float zero, kept as a pattern: both programs write this same word. -/
abbrev zeroF : EReal := Ideal.ofBits .f32 0x00000000#32
/-- The word of −∞, the value a row maximum is folded from. -/
abbrev negInf : EReal := Ideal.ofBits .f32 0xFF800000#32

/-- x · w for x of 100000 × 256 and w of 256 × 64. -/
def dense1 (x : (⟨2, ![100000, 256]⟩ : Shape).Idx → EReal) (w : (⟨2, ![256, 64]⟩ : Shape).Idx → EReal) :
    (⟨2, ![100000, 64]⟩ : Shape).Idx → EReal :=
  fun i => ∑ k : Fin 256, x (ix2 (n0 := 100000) (n1 := 256) (i 0) k) * w (ix2 (n0 := 256) (n1 := 64) k (i 1))

/-- relu (a + b) · w for a of 100000 × 64, the bias b of 64 entries laid along every row, and w of 64 × 40. -/
def dense2 (a : (⟨2, ![100000, 64]⟩ : Shape).Idx → EReal) (b : (⟨1, ![64]⟩ : Shape).Idx → EReal)
    (w : (⟨2, ![64, 40]⟩ : Shape).Idx → EReal) : (⟨2, ![100000, 40]⟩ : Shape).Idx → EReal :=
  fun i => ∑ k : Fin 64, max (a (ix2 (n0 := 100000) (n1 := 64) (i 0) k) + b (ix1 k)) zeroF * w (ix2 (n0 := 64) (n1 := 40) k (i 1))

/-- Row r of a + b, the bias of 40 entries laid along every row. -/
def biased (a : (⟨2, ![100000, 40]⟩ : Shape).Idx → EReal) (b : (⟨1, ![40]⟩ : Shape).Idx → EReal) (r : Fin 100000) :
    Fin 40 → EReal :=
  fun j => a (ix2 r j) + b (ix1 j)

/-- The maximum of a row of 40 entries, folded from −∞. -/
def rowMax (v : Fin 40 → EReal) : EReal := (Finset.univ : Finset (Fin 40)).fold max negInf v

/-- One entry of the log-softmax of a row v whose maximum is M. -/
def lsEntry (v : Fin 40 → EReal) (M : EReal) (j : Fin 40) : EReal :=
  (v j - M) - Ideal.log (∑ k : Fin 40, Ideal.exp (v k - M))

/-- The row-wise log-softmax of a + b. -/
def logsm (a : (⟨2, ![100000, 40]⟩ : Shape).Idx → EReal) (b : (⟨1, ![40]⟩ : Shape).Idx → EReal) :
    (⟨2, ![100000, 40]⟩ : Shape).Idx → EReal :=
  fun i => lsEntry (biased a b (i 0 : Fin 100000)) (rowMax (biased a b (i 0 : Fin 100000))) (i 1 : Fin 40)

/-- −∞ is the bottom of the extended reals: a maximum with it is the other operand. -/
theorem max_negInf (y : EReal) : max negInf y = y := by
  show max (Ideal.ofBits .f32 0xFF800000#32) y = y
  simp [Ideal.ofBits, Ideal.ieee]

end Cert.Gcn

end
-- ==== Proof.Region0.lean ====
/-
  The first dense stage as the kernel computes it. The grid has 20 points; each multiplies one block of 5000 rows of x by
  the whole of w into a zero accumulator. On the extended reals a change of float format is the identity and 0 + s = s,
  so entry (p, q) of a block's product is the sum over k of the block's x[p, k] · w[k, q]. Row p of block number t is row
  5000 · t + p of x, and the output's block of rows at point t is the same range of rows; the 20 blocks of rows tile the
  100000 rows (row r lies in block r / 5000). So after the 20 points the output array is x · w, entry by entry.
-/
import proofs.«153946_j34445637714219_1_alg».proof.Proof.Gen.KernelIdeal.Frame
import proofs.«153946_j34445637714219_1_alg».proof.Proof.Spec
import Idealize.ShloMosaic.Lib.ValueIdx
import Idealize.ShloMosaic.Lib.Pipeline.Value
import Idealize.ShloMosaic.PureOps.Ideal.Laws

noncomputable section
namespace Cert.KernelIdeal.Region0
open Idealize.ShloMosaic Idealize.ShloMosaic.TcCoe Idealize.SL.Sem Idealize.ShloMosaic.ValueIdx
open Cert.KernelIdeal Cert.KernelIdeal.Gen

/-- The left operand's row coordinate at an output index is the output's row. -/
theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- Its column coordinate is the contraction index. -/
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row coordinate is the contraction index. -/
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- Its column coordinate is the output's column. -/
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- One block of the product: entry (p, q) of the body's result is the sum over k of x0[p, k] · x1[k, q]. -/
theorem payload_apply (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  refine (Ideal.matmul_constant_zero_apply dot_S5000x256_S256x64_S5000x64_1_0_0_1_n_n none _ _ (ix2 p q)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (rhs_row _ _).trans hk
    | ⟨1, _⟩ => exact rhs_col _ _)
  show x0 _ * x1 _ = _
  rw [el, er]

/-- A block's entry (p, q) is the whole product's entry at an array index `i`, as soon as row p of the block of the left
    operand is row `i 0` of the array and column q of the right operand is column `i 1`. -/
theorem block_entry (A0 : S100000x256.Idx → EReal) (A1 : S256x64.Idx → EReal)
    (x0 : Vec Ideal S5000x256 .f32) (x1 : Vec Ideal S256x64 .f32) (p : Fin 5000) (q : Fin 64) (i : S100000x64.Idx)
    (h0 : ∀ k : Fin 256, x0 (ix2 p k) = A0 (ix2 (n0 := 100000) (n1 := 256) (i 0) k))
    (h1 : ∀ k : Fin 256, x1 (ix2 k q) = A1 (ix2 (n0 := 256) (n1 := 64) k (i 1))) :
    k0_pay1 x0 x1 (ix2 p q) = Cert.Gcn.dense1 A0 A1 i := by
  rw [payload_apply]
  show _ = ∑ k : Fin 256, A0 (ix2 (n0 := 100000) (n1 := 256) (i 0) k) * A1 (ix2 (n0 := 256) (n1 := 64) k (i 1))
  exact Finset.sum_congr rfl fun k _ => by rw [h0 k, h1 k]

theorem zero_offsets : (![0, 0] : Fin 2 → Nat) = fun _ => 0 := funext fun a => by fin_cases a <;> rfl

/-- The printed index maps over the 20 grid points: the left operand's block of rows moves with the output's, the right
    operand is staged whole, and the output's block of rows is the point's own. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

variable (V : (c : Dev nD) → (b : Ref sig .tc) → Buf (Elt Ideal) ((c : Thread nD τ).loc b)) (c : Dev nD)

/-- What point `t` writes back is block `t` of the product of the two arrays the region found. -/
theorem flushed_eq (t : Fin cfg0.N) :
    (dat0 (F := Ideal) V c).flushed 2 t
      = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := index_facts t
  funext j
  obtain ⟨p, q, rfl⟩ : ∃ (p : Fin 5000) (q : Fin 64), j = ix2 p q := ⟨j 0, j 1, eq_ix2 j⟩
  refine block_entry (V c main_arg0) (V c main_arg2) (iblk0 V c 0 t) (iblk0 V c 1 t) p q (((cfg0.win 2).blk t).view.emb (ix2 p q)) ?_ ?_
  · intro k
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · intro k
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega

/-- An index of the array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Each of the 20 blocks of 5000 rows is some point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- Row r of the array lies in the block of rows number r / 5000: the 20 blocks tile the 100000 rows. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After its 20 points the first region's output array holds the product of the two arrays it found at entry. -/
theorem value : (dat0 (F := Ideal) V c).arrAt 2 cfg0.N = Cert.Gcn.dense1 (V c main_arg0) (V c main_arg2) :=
  (dat0 V c).arrAt_eq_of_cover 2 (Cert.Gcn.dense1 (V c main_arg0) (V c main_arg2)) (fun t _ => flushed_eq V c t) covered

end Cert.KernelIdeal.Region0
end
-- ==== Proof.Region1.lean ====
/-
  The second dense stage as the kernel computes it. The grid has 20 points; each takes one block of 5000 rows of a, adds
  the bias along every row (the bias is staged as an array of one row, which a broadcast repeats down the block), takes the
  maximum with zero, and multiplies by the whole of w into a zero accumulator. On the extended reals a change of float
  format and a cast to the same shape are the identity and 0 + s = s, so entry (p, q) of a block's result is the sum over k
  of max (a[p, k] + b[k]) 0 · w[k, q] for the block's rows. Row p of block number t is row 5000 · t + p of a, the output's
  block of rows at point t is the same range of rows, and the 20 blocks of rows tile the 100000 rows (row r lies in block
  r / 5000). So after the 20 points the output array is relu (a + b) · w, entry by entry.
-/
import proofs.«153946_j34445637714219_1_alg».proof.Proof.Gen.KernelIdeal.Frame
import proofs.«153946_j34445637714219_1_alg».proof.Proof.Spec
import Idealize.ShloMosaic.Lib.ValueIdx
import Idealize.ShloMosaic.Lib.Pipeline.Value
import Idealize.ShloMosaic.PureOps.Ideal.Laws

noncomputable section
namespace Cert.KernelIdeal.Region1
open Idealize.ShloMosaic Idealize.ShloMosaic.TcCoe Idealize.SL.Sem Idealize.ShloMosaic.ValueIdx
open Cert.KernelIdeal Cert.KernelIdeal.Gen

/-- The left operand's row coordinate at an output index is the output's row. -/
theorem lhs_row (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- Its column coordinate is the contraction index. -/
theorem lhs_col (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's row coordinate is the contraction index. -/
theorem rhs_row (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- Its column coordinate is the output's column. -/
theorem rhs_col (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The one-row bias laid along the rows of a block: entry (p, k) of the broadcast is entry (0, k) of the row. -/
theorem bias_row (x1 : Vec Ideal S1x64 .f32) (p : Fin 5000) (k : Fin 64) :
    broadcastTo S5000x64 x1 broadcasts_S1x64_S5000x64 (ix2 p k) = x1 (ix2 (0 : Fin 1) k) :=
  broadcastTo_apply x1 broadcasts_S1x64_S5000x64 (ix2 p k) (ix2 (0 : Fin 1) k) fun a => by
    match a with
    | ⟨0, _⟩ => rfl
    | ⟨1, _⟩ => rfl

/-- One block of the second dense stage: entry (p, q) of the body's result is the sum over k of
    max (x0[p, k] + x1[0, k]) 0 · x2[k, q]. -/
theorem payload_apply (x0 : Vec Ideal S5000x64 .f32) (x1 : Vec Ideal S1x64 .f32) (x2 : Vec Ideal S64x40 .f32)
    (p : Fin 5000) (q : Fin 40) :
    k1_pay1 x0 x1 x2 (ix2 p q)
      = ∑ k : Fin 64, max (x0 (ix2 p k) + x1 (ix2 (0 : Fin 1) k)) Cert.Gcn.zeroF * x2 (ix2 k q) := by
  unfold k1_pay1
  refine (Ideal.matmul_constant_zero_apply dot_S5000x64_S64x40_S5000x40_1_0_0_1_n_n none _ _ (ix2 p q)).trans ?_
  rw [← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx (ix2 p q) ((ValueIdx.contrEquiv1 dot_S5000x64_S64x40_S5000x40_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x40_S5000x40_1_0_0_1_n_n.rhsIdx (ix2 p q) ((ValueIdx.contrEquiv1 dot_S5000x64_S64x40_S5000x40_1_0_0_1_n_n 64 rfl rfl).symm k) = ix2 k q := funext fun a => Fin.ext (by
    match a with
    | ⟨0, _⟩ => exact (rhs_row _ _).trans hk
    | ⟨1, _⟩ => exact rhs_col _ _)
  show max (shapeCast S5000x64 x0 shapeCasts_S5000x64_S5000x64 _
        + broadcastTo S5000x64 (shapeCast S1x64 x1 shapeCasts_S1x64_S1x64) broadcasts_S1x64_S5000x64 _)
      Cert.Gcn.zeroF * x2 _ = _
  rw [el, er, shapeCast_self, shapeCast_self, bias_row]

/-- A block's entry (p, q) is the whole stage's entry at an array index `i`, as soon as row p of the block of the first
    operand is row `i 0` of the array, the staged one-row array is the bias laid out as a row, and column q of the weights
    is column `i 1`. -/
theorem block_entry (A0 : S100000x64.Idx → EReal) (bias : S64.Idx → EReal) (A2 : S64x40.Idx → EReal)
    (x0 : Vec Ideal S5000x64 .f32) (x1 : Vec Ideal S1x64 .f32) (x2 : Vec Ideal S64x40 .f32)
    (p : Fin 5000) (q : Fin 40) (i : S100000x40.Idx)
    (h0 : ∀ k : Fin 64, x0 (ix2 p k) = A0 (ix2 (n0 := 100000) (n1 := 64) (i 0) k))
    (h1 : ∀ k : Fin 64, x1 (ix2 (0 : Fin 1) k) = bias (ix1 k))
    (h2 : ∀ k : Fin 64, x2 (ix2 k q) = A2 (ix2 (n0 := 64) (n1 := 40) k (i 1))) :
    k1_pay1 x0 x1 x2 (ix2 p q) = Cert.Gcn.dense2 A0 bias A2 i := by
  rw [payload_apply]
  show _ = ∑ k : Fin 64, max (A0 (ix2 (n0 := 100000) (n1 := 64) (i 0) k) + bias (ix1 k)) Cert.Gcn.zeroF
      * A2 (ix2 (n0 := 64) (n1 := 40) k (i 1))
  exact Finset.sum_congr rfl fun k _ => by rw [h0 k, h1 k, h2 k]

theorem zero_offsets : (![0, 0] : Fin 2 → Nat) = fun _ => 0 := funext fun a => by fin_cases a <;> rfl

/-- The printed index maps over the 20 grid points: the first operand's block of rows moves with the output's, the bias
    row and the weights are staged whole, and the output's block of rows is the point's own. -/
theorem index_facts : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 19
    ∧ win1_3.index t (1 : Fin 2) = 0 :=
  (by decide +kernel : ∀ t : Fin grid1.N, _)

variable (V : (c : Dev nD) → (b : Ref sig .tc) → Buf (Elt Ideal) ((c : Thread nD τ).loc b)) (c : Dev nD)
variable (bias : (⟨1, ![64]⟩ : Shape).Idx → EReal)
variable (hb : ∀ k : Fin 64, V c main_v46 (ix2 (0 : Fin 1) k) = bias (ix1 k))

include hb in
/-- What point `t` writes back is block `t` of relu (a + b) · w of the arrays the region found. -/
theorem flushed_eq (t : Fin cfg1.N) :
    (dat1 (F := Ideal) V c).flushed 3 t
      = ((cfg1.win 3).blk t).view.read (Elt Ideal) (Cert.Gcn.dense2 (V c main_v45) bias (V c main_arg4)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets,
    View.ld_unit_zero (S := S64x40) zero_offsets]
  obtain ⟨e0, e1, e2, e3, e4, e5, e6, e7⟩ := index_facts t
  funext j
  obtain ⟨p, q, rfl⟩ : ∃ (p : Fin 5000) (q : Fin 40), j = ix2 p q := ⟨j 0, j 1, eq_ix2 j⟩
  refine block_entry (V c main_v45) bias (V c main_arg4) (iblk1 V c 0 t) (iblk1 V c 1 t) (iblk1 V c 2 t) p q
    (((cfg1.win 3).blk t).view.emb (ix2 p q)) ?_ ?_ ?_
  · intro k
    refine congrArg (V c main_v45) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  · intro k
    refine (congrArg (V c main_v46) (funext fun a => Fin.ext ?_)).trans (hb k)
    match a with
    | ⟨0, _⟩ => show win1_1.index t (0 : Fin 2) * 1 + 1 * 0 = 0; omega
    | ⟨1, _⟩ => show win1_1.index t (1 : Fin 2) * 64 + 1 * k.val = k.val; omega
  · intro k
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 40 + 1 * q.val = win1_3.index t (1 : Fin 2) * 40 + 1 * q.val; omega

/-- An index of the array is in point `t`'s block iff each coordinate is in the block's range on its axis. -/
theorem mem_block (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v47).slice (win1_3.rect t)).set ↔ _
  rw [View.set_slice_whole, Rect.mem_set_unit]
  exact Iff.rfl

/-- Each of the 20 blocks of 5000 rows is some point's. -/
theorem index_onto : ∀ q0 : Fin 20, ∃ t : Fin cfg1.N, win1_3.index t = ![q0.val, 0] :=
  (by decide +kernel : ∀ q0 : Fin 20, ∃ t : Fin grid1.N, win1_3.index t = ![q0.val, 0])

/-- Row r of the array lies in the block of rows number r / 5000: the 20 blocks tile the 100000 rows. -/
theorem covered (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

include hb in
/-- After its 20 points the second region's output array holds relu (a + b) · w of the arrays it found at entry, the
    staged one-row array being the bias b laid out as a row. -/
theorem value : (dat1 (F := Ideal) V c).arrAt 3 cfg1.N = Cert.Gcn.dense2 (V c main_v45) bias (V c main_arg4) :=
  (dat1 V c).arrAt_eq_of_cover 3 (Cert.Gcn.dense2 (V c main_v45) bias (V c main_arg4)) (fun t _ => flushed_eq V c bias hb t) covered

end Cert.KernelIdeal.Region1
end
-- ==== Proof.Region2.lean ====
/-
  The log-softmax stage of the kernel, as ONE function of the arrays its pipeline finds at entry.

  Each of the 20 grid points takes a block of 5000 rows of the staged array a (100000 × 40) and the whole bias row b
  (1 × 40) and writes back a block of 5000 rows: with v = a[r, ·] + b the row r of the sum and M the maximum of v folded
  from −∞, entry (r, j) is (v[j] − M) − log (Σ_k exp (v[k] − M)). A row's result depends on that row of a and on b only, so
  the block a point writes is the corresponding block of the row-wise log-softmax of the WHOLE array; the 20 blocks tile
  the 100000 rows (row r is in block r / 5000), so the array ends holding that function everywhere.

  First the vector operations read at one index (p, q) of a block: the lane reductions are a fold of max from −∞ and a
  sum over the 40 entries of row p, the column casts and broadcasts carry a per-row scalar back along the row. Then the
  blocks: where each window's block sits in its array, what a point writes back, the cover, the array.
-/
import proofs.«153946_j34445637714219_1_alg».proof.Proof.Gen.KernelIdeal.Frame
import proofs.«153946_j34445637714219_1_alg».proof.Proof.Spec
import Idealize.ShloMosaic.Lib.ValueIdx
import Idealize.ShloMosaic.Lib.Pipeline.Value
import Idealize.ShloMosaic.PureOps.Ideal.Laws

noncomputable section

namespace Cert.KernelIdeal.Region2

open Idealize.ShloMosaic Idealize.ShloMosaic.TcCoe Idealize.SL.Sem Idealize.ShloMosaic.ValueIdx
open Cert.KernelIdeal Cert.KernelIdeal.Gen
open Idealize.ShloMosaic.Pipeline (Dat)

/-! ## The vector operations of the body, read at an index -/

/-- Reducing a 5000 × 40 block along its second axis: the index of row p with the coordinate k put back is (p, k). -/
theorem lift_lane (h : S5000x40.Reduces [1] S5000) (p : Fin 5000) (k : Fin (S5000x40.size 1)) :
    h.lift (ix1 p) k = ix2 p (⟨k.val, k.isLt⟩ : Fin 40) := by
  funext c; apply Fin.ext
  fin_cases c <;> rfl

/-- The maximum along the rows of a block, at row p: the fold of max from −∞ over the 40 entries of that row. Both
    sides are the same fold from the same word over the same entries; nothing is evaluated. -/
theorem laneMax_apply (v : FVec Ideal S5000x40 .f32) (h : S5000x40.Reduces [1] S5000) (hφ : FKind.Formats .f32)
    (hacc : (0xFF800000#32 : BitVec 32) = FKind.maximumf.neutral .f32 hφ) (p : Fin 5000) :
    multiReduction (F := Ideal) .maximumf [1] S5000 v 0xFF800000#32 h hφ hacc (ix1 p)
      = Cert.Gcn.rowMax (fun j => v (ix2 p j)) := by
  refine (Ideal.multiReduction_maximumf_single v _ h hφ hacc (ix1 p)).trans ?_
  have hf : (v ∘ h.lift (ix1 p)) = fun k : Fin 40 => v (ix2 p k) := funext fun k => congrArg v (lift_lane h p k)
  exact congrArg (fun f => Finset.fold max (Ideal.ofBits .f32 0xFF800000#32) f (Finset.univ : Finset (Fin 40))) hf

/-- The sum along the rows of a block, at row p: the sum of the 40 entries of that row. -/
theorem laneSum_apply (v : FVec Ideal S5000x40 .f32) (h : S5000x40.Reduces [1] S5000) (hφ : FKind.Formats .f32)
    (hacc : (0x00000000#32 : BitVec 32) = FKind.add.neutral .f32 hφ) (p : Fin 5000) :
    multiReduction (F := Ideal) .add [1] S5000 v 0x00000000#32 h hφ hacc (ix1 p)
      = ∑ k : Fin 40, v (ix2 p k) := by
  refine (Ideal.multiReduction_add_single v _ h hφ hacc (ix1 p)).trans ?_
  exact Finset.sum_congr rfl fun k _ => congrArg v (lift_lane h p k)

/-- A vector of 5000 entries viewed as a column 5000 × 1: entry (p, 0) is entry p (same row-major position). -/
theorem colCast_apply (z : FVec Ideal S5000 .f32) (h : S5000.ShapeCasts S5000x1) (p : Fin 5000) (o : Fin 1) :
    shapeCast S5000x1 z h (ix2 p o) = z (ix1 p) :=
  shapeCast_apply z h (ix2 p o) (ix1 p) (by
    rw [Shape.rowMajor_val_one, Shape.rowMajor_val_two]
    show p.val = p.val * 1 + o.val
    have := o.isLt; omega)

/-- A column 5000 × 1 laid along 40 lanes: entry (p, q) is the column's entry (p, 0). -/
theorem colBcast_apply (z : FVec Ideal S5000x1 .f32) (h : S5000x1.Broadcasts S5000x40) (p : Fin 5000) (q : Fin 40) :
    broadcastTo S5000x40 z h (ix2 p q) = z (ix2 p (0 : Fin 1)) :=
  broadcastTo_apply z h (ix2 p q) (ix2 p 0) (fun a => by
    match a with
    | ⟨0, _⟩ => rfl
    | ⟨1, _⟩ => rfl)

/-- A row 1 × 40 laid along 5000 rows: entry (p, q) is the row's entry (0, q). -/
theorem rowBcast_apply (z : FVec Ideal S1x40 .f32) (h : S1x40.Broadcasts S5000x40) (p : Fin 5000) (q : Fin 40) :
    broadcastTo S5000x40 z h (ix2 p q) = z (ix2 (0 : Fin 1) q) :=
  broadcastTo_apply z h (ix2 p q) (ix2 0 q) (fun a => by
    match a with
    | ⟨0, _⟩ => rfl
    | ⟨1, _⟩ => rfl)

/-- A block with each row's maximum taken away, at (p, q): the entry minus the maximum of row p. -/
theorem centred_apply (v : FVec Ideal S5000x40 .f32) (hr : S5000x40.Reduces [1] S5000) (hφ : FKind.Formats .f32)
    (hacc : (0xFF800000#32 : BitVec 32) = FKind.maximumf.neutral .f32 hφ) (hc : S5000.ShapeCasts S5000x1)
    (hb : S5000x1.Broadcasts S5000x40) (p : Fin 5000) (q : Fin 40) :
    (subf v (broadcastTo S5000x40 (shapeCast S5000x1 (multiReduction (F := Ideal) .maximumf [1] S5000 v 0xFF800000#32 hr hφ hacc) hc) hb)
        : FVec Ideal S5000x40 .f32) (ix2 p q)
      = v (ix2 p q) - Cert.Gcn.rowMax (fun j => v (ix2 p j)) := by
  rw [subf_apply, colBcast_apply, colCast_apply, laneMax_apply]

/-- A block with the logarithm of each row's sum of exponentials taken away, at (p, q). -/
theorem normalised_apply (w : FVec Ideal S5000x40 .f32) (hr : S5000x40.Reduces [1] S5000) (hφ : FKind.Formats .f32)
    (hacc : (0x00000000#32 : BitVec 32) = FKind.add.neutral .f32 hφ) (hc : S5000.ShapeCasts S5000x1)
    (hb : S5000x1.Broadcasts S5000x40) (p : Fin 5000) (q : Fin 40) :
    (subf w (broadcastTo S5000x40 (log (shapeCast S5000x1 (multiReduction (F := Ideal) .add [1] S5000 (exp w) 0x00000000#32 hr hφ hacc) hc)) hb)
        : FVec Ideal S5000x40 .f32) (ix2 p q)
      = w (ix2 p q) - Ideal.log (∑ k : Fin 40, Ideal.exp (w (ix2 p k))) := by
  rw [subf_apply, colBcast_apply]
  show w (ix2 p q) - FloatOps.log (shapeCast S5000x1 (multiReduction (F := Ideal) .add [1] S5000 (exp w) 0x00000000#32 hr hφ hacc) hc (ix2 p (0 : Fin 1))) = _
  rw [colCast_apply, laneSum_apply]
  rfl

/-- The two steps together: the row-wise log-softmax of a block v as the vector operations compute it, read at (p, q),
    is entry q of the log-softmax of r, whenever r is row p of v. -/
theorem rowLogsm_apply (v : FVec Ideal S5000x40 .f32) (hr : S5000x40.Reduces [1] S5000) (hφ : FKind.Formats .f32)
    (hmax : (0xFF800000#32 : BitVec 32) = FKind.maximumf.neutral .f32 hφ)
    (hadd : (0x00000000#32 : BitVec 32) = FKind.add.neutral .f32 hφ) (hc : S5000.ShapeCasts S5000x1)
    (hb : S5000x1.Broadcasts S5000x40) (p : Fin 5000) (q : Fin 40) (r : Fin 40 → EReal) (hv : ∀ j : Fin 40, v (ix2 p j) = r j) :
    (subf (subf v (broadcastTo S5000x40 (shapeCast S5000x1 (multiReduction (F := Ideal) .maximumf [1] S5000 v 0xFF800000#32 hr hφ hmax) hc) hb))
        (broadcastTo S5000x40 (log (shapeCast S5000x1 (multiReduction (F := Ideal) .add [1] S5000
          (exp (subf v (broadcastTo S5000x40 (shapeCast S5000x1 (multiReduction (F := Ideal) .maximumf [1] S5000 v 0xFF800000#32 hr hφ hmax) hc) hb)))
          0x00000000#32 hr hφ hadd) hc)) hb)
        : FVec Ideal S5000x40 .f32) (ix2 p q)
      = Cert.Gcn.lsEntry r (Cert.Gcn.rowMax r) q := by
  have e9 : ∀ j : Fin 40, (subf v (broadcastTo S5000x40 (shapeCast S5000x1 (multiReduction (F := Ideal) .maximumf [1] S5000 v 0xFF800000#32 hr hφ hmax) hc) hb)
      : FVec Ideal S5000x40 .f32) (ix2 p j) = r j - Cert.Gcn.rowMax r := fun j =>
    (centred_apply v hr hφ hmax hc hb p j).trans
      (congrArg₂ (fun a M => a - M) (hv j) (congrArg Cert.Gcn.rowMax (funext hv)))
  refine (normalised_apply _ hr hφ hadd hc hb p q).trans ?_
  unfold Cert.Gcn.lsEntry
  exact congrArg₂ (fun a s => a - Ideal.log s) (e9 q) (Finset.sum_congr rfl fun k _ => congrArg Ideal.exp (e9 k))

/-- THE BODY'S RESULT AT (p, q), for any block x0 of 5000 rows and any bias row x1: entry q of the log-softmax of
    x0[p, ·] + x1[0, ·]. -/
theorem pay_apply (x0 : Vec Ideal S5000x40 .f32) (x1 : Vec Ideal S1x40 .f32) (p : Fin 5000) (q : Fin 40) :
    k2_pay1 (F := Ideal) x0 x1 (ix2 p q)
      = Cert.Gcn.lsEntry (fun j => (x0 (ix2 p j) : EReal) + x1 (ix2 (0 : Fin 1) j))
          (Cert.Gcn.rowMax (fun j => (x0 (ix2 p j) : EReal) + x1 (ix2 (0 : Fin 1) j))) q := by
  have e5 : ∀ j : Fin 40, (addf (shapeCast S5000x40 x0 shapeCasts_S5000x40_S5000x40)
      (broadcastTo S5000x40 (shapeCast S1x40 x1 shapeCasts_S1x40_S1x40) broadcasts_S1x40_S5000x40) : FVec Ideal S5000x40 .f32) (ix2 p j)
      = (x0 (ix2 p j) : EReal) + x1 (ix2 (0 : Fin 1) j) := fun j => by
    rw [addf_apply, rowBcast_apply, shapeCast_self, shapeCast_self]
  unfold k2_pay1
  exact rowLogsm_apply _ _ _ _ _ _ _ p q _ e5

/-! ## From the blocks to the array -/

theorem hz : (![0, 0] : Fin 2 → Nat) = fun _ => 0 := funext fun a => by fin_cases a <;> rfl

/-- The three windows' block indices at a grid point, decided over the 20 points: the two row-blocked windows are at
    block (t, 0), the bias row is its array whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the log-softmax of a row is the whole-array function at an index of that row: r is row (i 0) of a + b
    and q is the column (i 1). -/
theorem lsEntry_eq_logsm (A : (⟨2, ![100000, 40]⟩ : Shape).Idx → EReal) (bias : (⟨1, ![40]⟩ : Shape).Idx → EReal)
    (r : Fin 40 → EReal) (q : Fin 40) (i : (⟨2, ![100000, 40]⟩ : Shape).Idx)
    (hr : ∀ k : Fin 40, r k = A (ix2 (i 0 : Fin 100000) k) + bias (ix1 k)) (hq : q = (i 1 : Fin 40)) :
    Cert.Gcn.lsEntry r (Cert.Gcn.rowMax r) q = Cert.Gcn.logsm A bias i := by
  obtain rfl : r = Cert.Gcn.biased A bias (i 0) := funext hr
  subst hq; rfl

section Blocks

variable (V : (c : Dev nD) → (b : Ref sig .tc) → Buf (Elt Ideal) ((c : Thread nD τ).loc b)) (c : Dev nD)

/-- The first window's block at point t holds rows 5000 t … 5000 t + 4999 of its array: its entry (p, k) is the array's
    entry (5000 t + p, k). -/
theorem blk0_read (t : Fin cfg2.N) (p : Fin 5000) (k : Fin 40) (i : Fin 100000) (hi : i.val = t.val * 5000 + p.val) :
    iblk2 (F := Ideal) V c 0 t (ix2 p k) = V c main_v60 (ix2 i k) := by
  obtain ⟨e0, e1, -⟩ := idx_facts t
  show V c main_v60 (((cfg2.win 0).blk t).view.emb (ix2 p k)) = V c main_v60 (ix2 i k)
  congr 1
  funext a; apply Fin.ext
  match a with
  | ⟨0, _⟩ => show win2_0.index t (0 : Fin 2) * 5000 + 1 * p.val = i.val; omega
  | ⟨1, _⟩ => show win2_0.index t (1 : Fin 2) * 40 + 1 * k.val = k.val; omega

/-- The second window's block at every point is its one-row array whole. -/
theorem blk1_read (t : Fin cfg2.N) (k : Fin 40) :
    iblk2 (F := Ideal) V c 1 t (ix2 (0 : Fin 1) k) = V c main_v61 (ix2 (0 : Fin 1) k) := by
  obtain ⟨-, -, e2, e3, -⟩ := idx_facts t
  show V c main_v61 (((cfg2.win 1).blk t).view.emb (ix2 (0 : Fin 1) k)) = V c main_v61 (ix2 (0 : Fin 1) k)
  congr 1
  funext a; apply Fin.ext
  match a with
  | ⟨0, _⟩ => show win2_1.index t (0 : Fin 2) * 1 + 1 * 0 = 0; omega
  | ⟨1, _⟩ => show win2_1.index t (1 : Fin 2) * 40 + 1 * k.val = k.val; omega

/-- Where the output window's block at point t puts its entry j: row 5000 t + j 0, column j 1. -/
theorem out_emb (t : Fin cfg2.N) (j : S5000x40.Idx) :
    ((((cfg2.win 2).blk t).view.emb j) 0).val = t.val * 5000 + (j 0).val
      ∧ ((((cfg2.win 2).blk t).view.emb j) 1).val = (j 1).val := by
  obtain ⟨-, -, -, -, e4, e5⟩ := idx_facts t
  constructor
  · show win2_2.index t (0 : Fin 2) * 5000 + 1 * (j 0).val = _; omega
  · show win2_2.index t (1 : Fin 2) * 40 + 1 * (j 1).val = _; omega

/-- WHAT POINT t WRITES BACK is block t of the row-wise log-softmax of the whole staged array plus the bias: the body
    stores its result over the whole staging buffer, the result at (p, q) is the log-softmax entry of the block's row p
    plus the bias row, and that row is row 5000 t + p of the array — the row the output block puts (p, q) in. -/
theorem flushed_eq (bias : (⟨1, ![40]⟩ : Shape).Idx → EReal) (hb : ∀ k : Fin 40, V c main_v61 (ix2 (0 : Fin 1) k) = bias (ix1 k))
    (t : Fin cfg2.N) :
    (dat2 (F := Ideal) V c).flushed 2 t = ((cfg2.win 2).blk t).view.read (Elt Ideal) (Cert.Gcn.logsm (V c main_v60) bias) := by
  show (cfg2.win 2).cut (grid2.coords t) ((dat2 V c).after 2 t) = _
  rw [after2_2]
  unfold out2_2
  rw [View.canon_unit_zero hz]
  simp only [View.ld_unit_zero (S := S5000x40) hz, View.ld_unit_zero (S := S1x40) hz]
  funext j
  show k2_pay1 (F := Ideal) (iblk2 V c 0 t) (iblk2 V c 1 t) j = Cert.Gcn.logsm (V c main_v60) bias (((cfg2.win 2).blk t).view.emb j)
  have hj := eq_ix2 (n0 := 5000) (n1 := 40) j
  obtain ⟨o0, o1⟩ := out_emb t j
  refine ((congrArg (k2_pay1 (F := Ideal) (iblk2 V c 0 t) (iblk2 V c 1 t)) hj).trans (pay_apply _ _ (j 0) (j 1))).trans ?_
  refine lsEntry_eq_logsm _ _ _ _ _ (fun k => ?_) (Fin.ext o1.symm)
  exact congrArg₂ (fun a b : EReal => a + b) (blk0_read V c t (j 0) k _ o0) ((blk1_read V c t k).trans (hb k))

/-- An index of the array is in point t's block iff each coordinate is in the block's range on its axis. -/
theorem mem_blk (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v62).slice (win2_2.rect t)).set ↔ _
  rw [View.set_slice_whole, Rect.mem_set_unit]
  exact Iff.rfl

/-- THE COVER: row r of the array lies in the block of point r / 5000, and every point writes its block back. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 40 ≤ (i 1).val ∧ (i 1).val < win2_2.index t (1 : Fin 2) * 40 + 40
    omega

end Blocks

/-- THE OUTPUT ARRAY after the 20 grid points: the row-wise log-softmax of the staged array plus the bias row, whatever
    the array held at entry — every point writes its block of that one function, and the blocks cover the array. -/
theorem value (V : (c : Dev nD) → (b : Ref sig .tc) → Buf (Elt Ideal) ((c : Thread nD τ).loc b)) (c : Dev nD)
    (bias : (⟨1, ![40]⟩ : Shape).Idx → EReal) (hb : ∀ k : Fin 40, V c main_v61 (ix2 (0 : Fin 1) k) = bias (ix1 k)) :
    (dat2 (F := Ideal) V c).arrAt 2 cfg2.N = Cert.Gcn.logsm (V c main_v60) bias :=
  (dat2 (F := Ideal) V c).arrAt_eq_of_cover 2 (Cert.Gcn.logsm (V c main_v60) bias)
    (fun t _ => flushed_eq V c bias hb t) covered

end Cert.KernelIdeal.Region2

end
-- ==== Proof.RefDense.lean ====
/-
  The reference's two dense stages are the specification's functions.

  The reference computes x · W1 by one `dot_general` (an entry is the sum over the contracted index of the products) and
  relu (agg + b1) · W2 by a broadcast of the bias along the rows, an addition, a maximum with a zero splat and a second
  `dot_general`. Read at an index each is the sum the specification writes: the contracted index runs over the columns of
  the left operand's row and the rows of the right operand's column, and the bias broadcast twice is the bias entry of the
  column.
-/
import proofs.«153946_j34445637714219_1_alg».proof.Proof.RefReadP
import proofs.«153946_j34445637714219_1_alg».proof.Proof.Spec

noncomputable section

namespace Cert.ReferenceIdeal.RefDense

open Idealize.ShloMosaic Idealize.ShloMosaic.TcCoe Idealize.SL.Sem Idealize.ShloMosaic.ValueIdx
open Cert.ReferenceIdeal Cert.ReferenceIdeal.Gen Cert.ReferenceIdeal.ReadP

/-- The first product: entry (r, j) of x · W1 is the sum over k of x[r, k] · W1[k, j]. -/
theorem v32_dense1 (x0 : (⟨S100000x256, .f32⟩ : BufTy).Contents (Elt Ideal)) (x2 : (⟨S256x64, .f32⟩ : BufTy).Contents (Elt Ideal)) :
    val_main_v32 (F := Ideal) x0 x2 = Cert.Gcn.dense1 x0 x2 := by
  funext i
  rw [val_main_v32_apply]
  unfold Cert.Gcn.dense1
  refine Finset.sum_congr rfl fun k _ => ?_
  have el : lidx_main_v32 i k = ix2 (n0 := 100000) (n1 := 256) (i 0) k :=
    funext fun a => by match a with | ⟨0, _⟩ => rfl | ⟨1, _⟩ => rfl
  have er : ridx_main_v32 i k = ix2 (n0 := 256) (n1 := 64) k (i 1) :=
    funext fun a => by match a with | ⟨0, _⟩ => rfl | ⟨1, _⟩ => rfl
  exact congrArg₂ (· * ·) (congrArg x0 el) (congrArg x2 er)

/-- The second product: entry (r, j) of relu (agg + b1) · W2 is the sum over k of max (agg[r, k] + b1[k]) 0 · W2[k, j];
    the aggregated array agg is whatever the earlier stages made it. -/
theorem v50_dense2 (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x40, .f32⟩ : BufTy).Contents (Elt Ideal)) :
    val_main_v50 (F := Ideal) x0 x1 x2 x3 x4 = Cert.Gcn.dense2 (val_main_v45 (F := Ideal) x0 x1 x2) x3 x4 := by
  funext i
  rw [val_main_v50_apply]
  unfold Cert.Gcn.dense2
  refine Finset.sum_congr rfl fun k _ => ?_
  rw [val_main_v49_apply, val_main_v48_apply, val_main_v47_apply, val_main_v46_apply, val_main_call1_v0_apply,
    val_main_call1_cst_apply]
  generalize val_main_v45 (F := Ideal) x0 x1 x2 = agg
  have el : lidx_main_v50 i k = ix2 (n0 := 100000) (n1 := 64) (i 0) k :=
    funext fun a => by match a with | ⟨0, _⟩ => rfl | ⟨1, _⟩ => rfl
  have er : ridx_main_v50 i k = ix2 (n0 := 64) (n1 := 40) k (i 1) :=
    funext fun a => by match a with | ⟨0, _⟩ => rfl | ⟨1, _⟩ => rfl
  have eb : idx_main_v46 (idx_main_v47 (lidx_main_v50 i k)) = ix1 k :=
    funext fun a => by match a with | ⟨0, _⟩ => rfl
  show max (agg (lidx_main_v50 i k) + x3 (idx_main_v46 (idx_main_v47 (lidx_main_v50 i k)))) (Ideal.ofBits .f32 0x00000000#32)
      * x4 (ridx_main_v50 i k) = _
  rw [el] at eb ⊢
  rw [eb, er]

end Cert.ReferenceIdeal.RefDense

end
-- ==== Proof.RefLogsm.lean ====
/-
  The reference's log-softmax stage is the row-wise log-softmax of the specification.

  The reference adds the bias, laid along every row, to the aggregated array a; takes each row's maximum by a fold of max
  from −∞ and then once more the maximum of −∞ with it (the identity: −∞ is the bottom); subtracts it along the row;
  sums the exponentials along the row from the zero word (zero plus the sum); takes the logarithm and subtracts it along
  the row. At an index (r, q), with v = a[r, ·] + b and M the fold of max from −∞ over v, that is
  (v[q] − M) − log (Σ_k exp (v[k] − M)): the specification's entry. The aggregated array is kept opaque throughout; only
  its entries of row r are named.
-/
import proofs.«153946_j34445637714219_1_alg».proof.Proof.RefReadP
import proofs.«153946_j34445637714219_1_alg».proof.Proof.Spec

noncomputable section

namespace Cert.ReferenceIdeal.RefLogsm

open Idealize.ShloMosaic Idealize.ShloMosaic.TcCoe Idealize.SL.Sem Idealize.ShloMosaic.ValueIdx
open Cert.ReferenceIdeal Cert.ReferenceIdeal.Gen Cert.ReferenceIdeal.ReadP

/-- Reducing a 100000 × 40 array along its second axis: the index of row r with the coordinate k put back is (r, k). -/
theorem lift_row (h : S100000x40.Reduces [1] S100000) (r : Fin 100000) (k : Fin (S100000x40.size 1)) :
    h.lift (ix1 r) k = ix2 r (⟨k.val, k.isLt⟩ : Fin 40) := by
  funext c; apply Fin.ext
  fin_cases c <;> rfl

/-- The reduction with a maximum body from the −∞ word along the rows, at row r: the fold of max from −∞ over the 40
    entries of that row. The same fold from the same word on both sides; nothing is evaluated. -/
theorem hostRowMax (y : FVec Ideal S100000x40 .f32) (h' : S100000x40.ReducesTo [1] S100000) (hu : 0 < S_.numel) (r : Fin 100000) :
    Host.reduce FloatOps.maximumf y (constant (F := Ideal) S_ .f32 0xFF800000#32) h' hu (ix1 r)
      = Cert.Gcn.rowMax (fun k => y (ix2 r k)) := by
  have h : S100000x40.Reduces [1] S100000 := by decide
  rw [Host.reduce_eq_fold_single FloatOps.maximumf y _ h' h hu]
  have hf : (y ∘ h.lift (ix1 r)) = fun k : Fin 40 => y (ix2 r k) := funext fun k => congrArg y (lift_row h r k)
  exact congrArg (fun f => Finset.fold max (Ideal.ofBits .f32 0xFF800000#32) f (Finset.univ : Finset (Fin 40))) hf

/-- THE REFERENCE'S LOG-SOFTMAX STAGE is the specification's function of the aggregated array and the bias. At (r, q):
    the biased row (e66), its maximum (emax), the centred row — the second maximum with −∞ drops out — (e5), the
    exponentials under the row sum (e6); the sum starts from the zero word. -/
theorem v67_logsm (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) :
    val_main_v67 (F := Ideal) x0 x1 x2 x3 x4 x5 = Cert.Gcn.logsm (val_main_v63 (F := Ideal) x0 x1 x2 x3 x4) x5 := by
  generalize hA : val_main_v63 (F := Ideal) x0 x1 x2 x3 x4 = A
  funext i
  obtain ⟨r, q, rfl⟩ : ∃ (r : Fin 100000) (q : Fin 40), i = ix2 r q := ⟨i 0, i 1, eq_ix2 i⟩
  have e66 : ∀ k : Fin 40, val_main_v66 (F := Ideal) x0 x1 x2 x3 x4 x5 (ix2 r k) = Cert.Gcn.biased A x5 r k := fun k => by
    rw [val_main_v66_apply, val_main_v65_apply, val_main_v64_apply, hA]
    exact congrArg (fun z => (A (ix2 r k) : EReal) + x5 z) (funext fun a => Fin.ext (by match a with | ⟨0, _⟩ => rfl))
  have emax : val_main_call2_v0 (F := Ideal) x0 x1 x2 x3 x4 x5 (ix1 r) = Cert.Gcn.rowMax (Cert.Gcn.biased A x5 r) := by
    unfold val_main_call2_v0 val_main_call2_cst
    exact (hostRowMax _ _ _ r).trans (congrArg Cert.Gcn.rowMax (funext e66))
  have e5 : ∀ k : Fin 40, val_main_call2_v5 (F := Ideal) x0 x1 x2 x3 x4 x5 (ix2 r k)
      = Cert.Gcn.biased A x5 r k - Cert.Gcn.rowMax (Cert.Gcn.biased A x5 r) := fun k => by
    have hidx : idx_main_call2_v3 (idx_main_call2_v4 (ix2 r k)) = ix1 r :=
      funext fun a => Fin.ext (by match a with | ⟨0, _⟩ => rfl)
    rw [val_main_call2_v5_apply, val_main_call2_v4_apply, val_main_call2_v3_apply, val_main_call2_v2_apply,
      val_main_call2_v1_apply, val_main_call2_cst_0_apply, e66, hidx, emax]
    show Cert.Gcn.biased A x5 r k - max Cert.Gcn.negInf (Cert.Gcn.rowMax (Cert.Gcn.biased A x5 r)) = _
    rw [Cert.Gcn.max_negInf]
  have e6 : ∀ k : Fin 40, val_main_call2_v6 (F := Ideal) x0 x1 x2 x3 x4 x5
      (idx_main_call2_v7 (idx_main_call2_v8 (idx_main_call2_v10 (ix2 r q))) k)
      = Ideal.exp (Cert.Gcn.biased A x5 r k - Cert.Gcn.rowMax (Cert.Gcn.biased A x5 r)) := fun k => by
    have hidx : idx_main_call2_v7 (idx_main_call2_v8 (idx_main_call2_v10 (ix2 r q))) k = ix2 r k :=
      funext fun a => Fin.ext (by match a with | ⟨0, _⟩ => rfl | ⟨1, _⟩ => rfl)
    rw [hidx, val_main_call2_v6_apply, e5]
    rfl
  rw [val_main_v67_apply, val_main_call2_v10_apply, val_main_call2_v9_apply, val_main_call2_v8_apply,
    val_main_call2_v7_apply, val_main_call2_cst_1_apply, e5 q, Finset.sum_congr rfl (fun k _ => e6 k)]
  show (Cert.Gcn.biased A x5 r q - Cert.Gcn.rowMax (Cert.Gcn.biased A x5 r))
      - Ideal.log (Ideal.ofBits .f32 0x00000000#32 + ∑ k : Fin 40, Ideal.exp (Cert.Gcn.biased A x5 r k - Cert.Gcn.rowMax (Cert.Gcn.biased A x5 r))) = _
  rw [Ideal.ofBits_zero_f32, zero_add]
  rfl

end Cert.ReferenceIdeal.RefLogsm

end
-- ==== Proof.Host0.lean ====
/-
  The first host stretch: everything the kernel does on the host before its first gridded region.

  From the edge list (two rows of 1 600 000 node numbers) it cuts the source row and the destination row and appends the
  self-loops 0 … 99 999 to each; it counts every node's in-degree by scatter-adding ones at the destinations; it takes
  the inverse square root of the degree floored at one, and puts zero where the degree is zero; and it gives every edge
  the weight  factor(source) · factor(destination),  gathered at the two index vectors after negative indices have been
  wrapped around.

  The reference computes the same three arrays (the two index vectors and the edge weights) by the same operations in
  the same order, so each of them is the reference's stage as soon as the edge list is the same array. Nothing is
  computed here: the two sides are one composition of operations. The stretch is three lists run in order, and the proof
  follows them: the first list's results from the edge list, the select's from the first list's, the last list's from
  both.
-/
import proofs.«153946_j34445637714219_1_alg».proof.Proof.Gen.KernelIdeal.Launch
import proofs.«153946_j34445637714219_1_alg».proof.Proof.RefReadP
import proofs.«153946_j34445637714219_1_alg».proof.Proof.LibAfter

noncomputable section

namespace Cert.HostStretch

open Idealize.ShloMosaic Idealize.ShloMosaic.TcCoe Idealize.SL.Sem Idealize.ShloMosaic.StableHlo Idealize.ShloMosaic.ValueIdx

variable {F : FTy → Type} [FloatOps F] (Wk : Valuation Cert.KernelIdeal.τ Cert.KernelIdeal.sig (Elt F))

/-- The first stretch: the three lists of host operations before the first gridded region, run in order. -/
abbrev S0 : Valuation Cert.KernelIdeal.τ Cert.KernelIdeal.sig (Elt F) :=
  after Cert.KernelIdeal.Gen.hostOps0_2 (after Cert.KernelIdeal.Gen.hostOps0_1 (after Cert.KernelIdeal.Gen.hostOps0 Wk))

/-! ## What each list writes -/

/-- The buffers the first list writes, in program order. -/
abbrev written0 : List (Ref Cert.KernelIdeal.sig .tc) :=
  [Cert.KernelIdeal.main_v0, Cert.KernelIdeal.main_v1, Cert.KernelIdeal.main_v2, Cert.KernelIdeal.main_v3, Cert.KernelIdeal.main_v4, Cert.KernelIdeal.main_v5, Cert.KernelIdeal.main_v6, Cert.KernelIdeal.main_cst, Cert.KernelIdeal.main_v7, Cert.KernelIdeal.main_cst_0, Cert.KernelIdeal.main_v8, Cert.KernelIdeal.main_v9, Cert.KernelIdeal.main_v10, Cert.KernelIdeal.main_cst_1, Cert.KernelIdeal.main_v11, Cert.KernelIdeal.main_v12, Cert.KernelIdeal.main_cst_2, Cert.KernelIdeal.main_v13, Cert.KernelIdeal.main_v14, Cert.KernelIdeal.main_v15, Cert.KernelIdeal.main_cst_3]
/-- The buffers the select's three operations write. -/
abbrev written0_1 : List (Ref Cert.KernelIdeal.sig .tc) :=
  [Cert.KernelIdeal.main_call0_v0, Cert.KernelIdeal.main_call0_v1, Cert.KernelIdeal.main_v16]
/-- The buffers the last list writes, in program order. -/
abbrev written0_2 : List (Ref Cert.KernelIdeal.sig .tc) :=
  [Cert.KernelIdeal.main_c, Cert.KernelIdeal.main_v17, Cert.KernelIdeal.main_v18, Cert.KernelIdeal.main_c_4, Cert.KernelIdeal.main_v19, Cert.KernelIdeal.main_v20, Cert.KernelIdeal.main_v21, Cert.KernelIdeal.main_v22, Cert.KernelIdeal.main_v23, Cert.KernelIdeal.main_c_5, Cert.KernelIdeal.main_v24, Cert.KernelIdeal.main_v25, Cert.KernelIdeal.main_c_6, Cert.KernelIdeal.main_v26, Cert.KernelIdeal.main_v27, Cert.KernelIdeal.main_v28, Cert.KernelIdeal.main_v29, Cert.KernelIdeal.main_v30, Cert.KernelIdeal.main_v31]

theorem writes0 :
    (Cert.KernelIdeal.Gen.hostOps0 (F := F)).Forall fun op =>
      op.writes ⊆ (written0.map (Proc.devRef (τ := Cert.KernelIdeal.τ) .tc)).toFinset := by
  simp only [Cert.KernelIdeal.Gen.hostOps0, List.Forall, StableHlo.nullary_writes, StableHlo.unary_writes,
    StableHlo.binary_writes, StableHlo.ternary_writes, StableHlo.reshape_writes, Finset.singleton_subset_iff,
    List.mem_toFinset]
  repeat' apply And.intro
  all_goals exact List.mem_map_of_mem (by decide)

theorem writes0_1 :
    (Cert.KernelIdeal.Gen.hostOps0_1 (F := F)).Forall fun op =>
      op.writes ⊆ (written0_1.map (Proc.devRef (τ := Cert.KernelIdeal.τ) .tc)).toFinset := by
  simp only [Cert.KernelIdeal.Gen.hostOps0_1, List.Forall, StableHlo.nullary_writes, StableHlo.unary_writes,
    StableHlo.binary_writes, StableHlo.ternary_writes, StableHlo.reshape_writes, Finset.singleton_subset_iff,
    List.mem_toFinset]
  repeat' apply And.intro
  all_goals exact List.mem_map_of_mem (by decide)

theorem writes0_2 :
    (Cert.KernelIdeal.Gen.hostOps0_2 (F := F)).Forall fun op =>
      op.writes ⊆ (written0_2.map (Proc.devRef (τ := Cert.KernelIdeal.τ) .tc)).toFinset := by
  simp only [Cert.KernelIdeal.Gen.hostOps0_2, List.Forall, StableHlo.nullary_writes, StableHlo.unary_writes,
    StableHlo.binary_writes, StableHlo.ternary_writes, StableHlo.reshape_writes, Finset.singleton_subset_iff,
    List.mem_toFinset]
  repeat' apply And.intro
  all_goals exact List.mem_map_of_mem (by decide)

/-- The stretch leaves the six arguments alone: none of the three lists writes one. -/
theorem s0_keep :
    ∀ b ∈ [Cert.KernelIdeal.main_arg0, Cert.KernelIdeal.main_arg1, Cert.KernelIdeal.main_arg2, Cert.KernelIdeal.main_arg3, Cert.KernelIdeal.main_arg4, Cert.KernelIdeal.main_arg5], S0 Wk (Proc.devRef .tc b) = Wk (Proc.devRef .tc b) :=
  fun b hb =>
    have h : b ∉ written0 ∧ b ∉ written0_1 ∧ b ∉ written0_2 :=
      (by decide : ∀ b ∈ [Cert.KernelIdeal.main_arg0, Cert.KernelIdeal.main_arg1, Cert.KernelIdeal.main_arg2, Cert.KernelIdeal.main_arg3, Cert.KernelIdeal.main_arg4, Cert.KernelIdeal.main_arg5], b ∉ written0 ∧ b ∉ written0_1 ∧ b ∉ written0_2) b hb
    (after_of_writes_sub _ _ writes0_2 h.2.2).trans
      ((after_of_writes_sub _ _ writes0_1 h.2.1).trans (after_of_writes_sub _ Wk writes0 h.1))

/-! ## The first list: the index vectors, the degree count and its inverse square root

From the edge list the first list cuts the source row and the destination row, appends the self-loops 0 … 99999 to
each, counts each node's in-degree by scatter-adding ones at the destinations, and takes the inverse square root of
the degree (floored at one), keeping also the mask "degree > 0". The reference does the same, in the same order. -/

/-- The source indices with the self-loops appended. -/
theorem first_main_v3 (x1 : (⟨Cert.ReferenceIdeal.S2x1600000, .i32⟩ : BufTy).Contents (Elt F)) (h1 : Wk (Proc.devRef .tc Cert.KernelIdeal.main_arg1) = x1) :
    after Cert.KernelIdeal.Gen.hostOps0 Wk (Proc.devRef .tc Cert.KernelIdeal.main_v3) = Cert.ReferenceIdeal.ReadP.val_main_v3 (F := F) x1 := by
  after_results
  rw [h1]
  rfl

/-- The destination indices with the self-loops appended. -/
theorem first_main_v6 (x1 : (⟨Cert.ReferenceIdeal.S2x1600000, .i32⟩ : BufTy).Contents (Elt F)) (h1 : Wk (Proc.devRef .tc Cert.KernelIdeal.main_arg1) = x1) :
    after Cert.KernelIdeal.Gen.hostOps0 Wk (Proc.devRef .tc Cert.KernelIdeal.main_v6) = Cert.ReferenceIdeal.ReadP.val_main_v6 (F := F) x1 := by
  after_results
  rw [h1]
  rfl

set_option maxHeartbeats 2000000 in
/-- The mask: the in-degree is positive. -/
theorem first_main_v12 (x1 : (⟨Cert.ReferenceIdeal.S2x1600000, .i32⟩ : BufTy).Contents (Elt F)) (h1 : Wk (Proc.devRef .tc Cert.KernelIdeal.main_arg1) = x1) :
    after Cert.KernelIdeal.Gen.hostOps0 Wk (Proc.devRef .tc Cert.KernelIdeal.main_v12) = Cert.ReferenceIdeal.ReadP.val_main_v12 (F := F) x1 := by
  after_results
  rw [h1]
  rfl

set_option maxHeartbeats 2000000 in
/-- The inverse square root of the in-degree floored at one. -/
theorem first_main_v15 (x1 : (⟨Cert.ReferenceIdeal.S2x1600000, .i32⟩ : BufTy).Contents (Elt F)) (h1 : Wk (Proc.devRef .tc Cert.KernelIdeal.main_arg1) = x1) :
    after Cert.KernelIdeal.Gen.hostOps0 Wk (Proc.devRef .tc Cert.KernelIdeal.main_v15) = Cert.ReferenceIdeal.ReadP.val_main_v15 (F := F) x1 := by
  after_results
  rw [h1]
  rfl

/-- The zero the select falls back to. -/
theorem first_main_cst_3 :
    after Cert.KernelIdeal.Gen.hostOps0 Wk (Proc.devRef .tc Cert.KernelIdeal.main_cst_3) = Cert.ReferenceIdeal.ReadP.val_main_cst_3 (F := F) := by
  after_results
  rfl

/-! ## The select: the normalising factor, zero where the degree is zero -/

theorem select_main_v16 (x1 : (⟨Cert.ReferenceIdeal.S2x1600000, .i32⟩ : BufTy).Contents (Elt F)) (W : Valuation Cert.KernelIdeal.τ Cert.KernelIdeal.sig (Elt F))
    (h12 : W (Proc.devRef .tc Cert.KernelIdeal.main_v12) = Cert.ReferenceIdeal.ReadP.val_main_v12 (F := F) x1)
    (h15 : W (Proc.devRef .tc Cert.KernelIdeal.main_v15) = Cert.ReferenceIdeal.ReadP.val_main_v15 (F := F) x1)
    (hc : W (Proc.devRef .tc Cert.KernelIdeal.main_cst_3) = Cert.ReferenceIdeal.ReadP.val_main_cst_3 (F := F)) :
    after Cert.KernelIdeal.Gen.hostOps0_1 W (Proc.devRef .tc Cert.KernelIdeal.main_v16) = Cert.ReferenceIdeal.ReadP.val_main_v16 (F := F) x1 := by
  after_results_simp
  simp only [Cert.Lib.ofBuf_toBuf]
  rw [h12, h15, hc]
  rfl

/-! ## The last list: the edge weights

Each edge's weight is the product of the normalising factors of its two ends, gathered at the (normalised) source and
destination indices. -/

theorem weights_main_v31 (x1 : (⟨Cert.ReferenceIdeal.S2x1600000, .i32⟩ : BufTy).Contents (Elt F)) (W : Valuation Cert.KernelIdeal.τ Cert.KernelIdeal.sig (Elt F))
    (h3 : W (Proc.devRef .tc Cert.KernelIdeal.main_v3) = Cert.ReferenceIdeal.ReadP.val_main_v3 (F := F) x1)
    (h6 : W (Proc.devRef .tc Cert.KernelIdeal.main_v6) = Cert.ReferenceIdeal.ReadP.val_main_v6 (F := F) x1)
    (h16 : W (Proc.devRef .tc Cert.KernelIdeal.main_v16) = Cert.ReferenceIdeal.ReadP.val_main_v16 (F := F) x1) :
    after Cert.KernelIdeal.Gen.hostOps0_2 W (Proc.devRef .tc Cert.KernelIdeal.main_v31) = Cert.ReferenceIdeal.ReadP.val_main_v31 (F := F) x1 := by
  after_results_simp
  rw [h3, h6, h16]
  rfl

/-! ## The stretch as a whole -/

/-- Neither the select's operations nor the last list writes the two index vectors. -/
theorem indexVectors_kept (W : Valuation Cert.KernelIdeal.τ Cert.KernelIdeal.sig (Elt F)) :
    ∀ b ∈ [Cert.KernelIdeal.main_v3, Cert.KernelIdeal.main_v6],
      after Cert.KernelIdeal.Gen.hostOps0_1 W (Proc.devRef .tc b) = W (Proc.devRef .tc b)
      ∧ after Cert.KernelIdeal.Gen.hostOps0_2 W (Proc.devRef .tc b) = W (Proc.devRef .tc b) :=
  fun b hb =>
    have h : b ∉ written0_1 ∧ b ∉ written0_2 :=
      (by decide : ∀ b ∈ [Cert.KernelIdeal.main_v3, Cert.KernelIdeal.main_v6], b ∉ written0_1 ∧ b ∉ written0_2) b hb
    ⟨after_of_writes_sub _ W writes0_1 h.1, after_of_writes_sub _ W writes0_2 h.2⟩

theorem s0_v3 (x1 : (⟨Cert.ReferenceIdeal.S2x1600000, .i32⟩ : BufTy).Contents (Elt F)) (h1 : Wk (Proc.devRef .tc Cert.KernelIdeal.main_arg1) = x1) :
    S0 Wk (Proc.devRef .tc Cert.KernelIdeal.main_v3) = Cert.ReferenceIdeal.ReadP.val_main_v3 (F := F) x1 :=
  ((indexVectors_kept _ Cert.KernelIdeal.main_v3 (by decide)).2).trans
    (((indexVectors_kept _ Cert.KernelIdeal.main_v3 (by decide)).1).trans (first_main_v3 Wk x1 h1))

theorem s0_v6 (x1 : (⟨Cert.ReferenceIdeal.S2x1600000, .i32⟩ : BufTy).Contents (Elt F)) (h1 : Wk (Proc.devRef .tc Cert.KernelIdeal.main_arg1) = x1) :
    S0 Wk (Proc.devRef .tc Cert.KernelIdeal.main_v6) = Cert.ReferenceIdeal.ReadP.val_main_v6 (F := F) x1 :=
  ((indexVectors_kept _ Cert.KernelIdeal.main_v6 (by decide)).2).trans
    (((indexVectors_kept _ Cert.KernelIdeal.main_v6 (by decide)).1).trans (first_main_v6 Wk x1 h1))

theorem s0_v31 (x1 : (⟨Cert.ReferenceIdeal.S2x1600000, .i32⟩ : BufTy).Contents (Elt F)) (h1 : Wk (Proc.devRef .tc Cert.KernelIdeal.main_arg1) = x1) :
    S0 Wk (Proc.devRef .tc Cert.KernelIdeal.main_v31) = Cert.ReferenceIdeal.ReadP.val_main_v31 (F := F) x1 :=
  weights_main_v31 x1 _
    (((indexVectors_kept _ Cert.KernelIdeal.main_v3 (by decide)).1).trans (first_main_v3 Wk x1 h1))
    (((indexVectors_kept _ Cert.KernelIdeal.main_v6 (by decide)).1).trans (first_main_v6 Wk x1 h1))
    (select_main_v16 x1 _ (first_main_v12 Wk x1 h1) (first_main_v15 Wk x1 h1) (first_main_cst_3 Wk))

end Cert.HostStretch
-- ==== Proof.Host1.lean ====
/-
  The second host stretch: between its first and its second gridded region the kernel normalises the source indices,
  gathers the rows of x·W1 at them, scales each gathered row by its edge weight and scatter-adds the rows at the
  destination indices into a zero array; it also views the bias b1 as one row.

  Every one of those operations is the reference's own, applied to the same operands, so the aggregated array is the
  reference's stage as soon as the four arrays the stretch reads (the two index vectors, the edge weights and x·W1)
  are the reference's stages. Nothing is computed: the two sides are the same composition of the same operations.
-/
import proofs.«153946_j34445637714219_1_alg».proof.Proof.Gen.KernelIdeal.Launch
import proofs.«153946_j34445637714219_1_alg».proof.Proof.RefReadP
import proofs.«153946_j34445637714219_1_alg».proof.Proof.LibAfter

noncomputable section

namespace Cert.HostStretch

open Idealize.ShloMosaic Idealize.ShloMosaic.TcCoe Idealize.SL.Sem Idealize.ShloMosaic.StableHlo Idealize.ShloMosaic.ValueIdx

variable {F : FTy → Type} [FloatOps F] (Wk : Valuation Cert.KernelIdeal.τ Cert.KernelIdeal.sig (Elt F))

/-- The buffers the second stretch writes, in program order. -/
abbrev written1 : List (Ref Cert.KernelIdeal.sig .tc) :=
  [Cert.KernelIdeal.main_c_7, Cert.KernelIdeal.main_v33, Cert.KernelIdeal.main_v34, Cert.KernelIdeal.main_c_8,
   Cert.KernelIdeal.main_v35, Cert.KernelIdeal.main_v36, Cert.KernelIdeal.main_v37, Cert.KernelIdeal.main_v38,
   Cert.KernelIdeal.main_v39, Cert.KernelIdeal.main_v40, Cert.KernelIdeal.main_v41, Cert.KernelIdeal.main_v42,
   Cert.KernelIdeal.main_cst_9, Cert.KernelIdeal.main_v43, Cert.KernelIdeal.main_v44, Cert.KernelIdeal.main_v45,
   Cert.KernelIdeal.main_v46]

/-- Each operation of the stretch writes one buffer, and it is on that list. -/
theorem writes1 :
    (Cert.KernelIdeal.Gen.hostOps1 (F := F)).Forall fun op =>
      op.writes ⊆ (written1.map (Proc.devRef (τ := Cert.KernelIdeal.τ) .tc)).toFinset := by
  simp only [Cert.KernelIdeal.Gen.hostOps1, List.Forall, StableHlo.nullary_writes, StableHlo.unary_writes,
    StableHlo.binary_writes, StableHlo.ternary_writes, StableHlo.reshape_writes, Finset.singleton_subset_iff,
    List.mem_toFinset]
  repeat' apply And.intro
  all_goals exact List.mem_map_of_mem (by decide)

/-- The stretch leaves alone what it does not write: the two index vectors, the edge weights and the six arguments. -/
theorem s1_keep :
    ∀ b ∈ [Cert.KernelIdeal.main_v3, Cert.KernelIdeal.main_v6, Cert.KernelIdeal.main_v31, Cert.KernelIdeal.main_arg0,
        Cert.KernelIdeal.main_arg1, Cert.KernelIdeal.main_arg2, Cert.KernelIdeal.main_arg3, Cert.KernelIdeal.main_arg4,
        Cert.KernelIdeal.main_arg5],
      after Cert.KernelIdeal.Gen.hostOps1 Wk (Proc.devRef .tc b) = Wk (Proc.devRef .tc b) :=
  fun b hb => after_of_writes_sub _ Wk writes1
    ((by decide : ∀ b ∈ [Cert.KernelIdeal.main_v3, Cert.KernelIdeal.main_v6, Cert.KernelIdeal.main_v31,
        Cert.KernelIdeal.main_arg0, Cert.KernelIdeal.main_arg1, Cert.KernelIdeal.main_arg2, Cert.KernelIdeal.main_arg3,
        Cert.KernelIdeal.main_arg4, Cert.KernelIdeal.main_arg5], b ∉ written1) b hb)

/-- The first layer's aggregation: gather the rows of x·W1 at the normalised source indices, scale by the edge weights,
    scatter-add at the destination indices into zeros. Operation for operation the reference's. -/
theorem s1_v45 (x0 : (⟨Cert.ReferenceIdeal.S100000x256, .f32⟩ : BufTy).Contents (Elt F))
    (x1 : (⟨Cert.ReferenceIdeal.S2x1600000, .i32⟩ : BufTy).Contents (Elt F))
    (x2 : (⟨Cert.ReferenceIdeal.S256x64, .f32⟩ : BufTy).Contents (Elt F))
    (h3 : Wk (Proc.devRef .tc Cert.KernelIdeal.main_v3) = Cert.ReferenceIdeal.ReadP.val_main_v3 (F := F) x1)
    (h6 : Wk (Proc.devRef .tc Cert.KernelIdeal.main_v6) = Cert.ReferenceIdeal.ReadP.val_main_v6 (F := F) x1)
    (h31 : Wk (Proc.devRef .tc Cert.KernelIdeal.main_v31) = Cert.ReferenceIdeal.ReadP.val_main_v31 (F := F) x1)
    (h32 : Wk (Proc.devRef .tc Cert.KernelIdeal.main_v32) = Cert.ReferenceIdeal.ReadP.val_main_v32 (F := F) x0 x2) :
    after Cert.KernelIdeal.Gen.hostOps1 Wk (Proc.devRef .tc Cert.KernelIdeal.main_v45)
      = Cert.ReferenceIdeal.ReadP.val_main_v45 (F := F) x0 x1 x2 := by
  after_results_simp
  rw [h3, h6, h31, h32]
  rfl

/-- A vector of n entries viewed as one row, read at (0, t), is entry t. -/
private theorem shapeCast_oneRow_apply {α : Type} {n : Nat} (hsc : (⟨1, ![n]⟩ : Shape).ShapeCasts (⟨2, ![1, n]⟩ : Shape))
    (z : (⟨1, ![n]⟩ : Shape).Idx → α) (t : Fin n) :
    shapeCast (⟨2, ![1, n]⟩ : Shape) z hsc (ix2 (0 : Fin 1) t) = z (ix1 t) :=
  (shapeCast_addUnit_apply ![n] z hsc (ix2 (0 : Fin 1) t)).trans
    (congrArg z (funext fun a => by fin_cases a; rfl))

/-- The bias b1 viewed as one row of 64: entry (0, k) is b1 at k. -/
theorem s1_v46 (x3 : (⟨Cert.ReferenceIdeal.S64, .f32⟩ : BufTy).Contents (Elt F))
    (h : Wk (Proc.devRef .tc Cert.KernelIdeal.main_arg3) = x3) (k : Fin 64) :
    after Cert.KernelIdeal.Gen.hostOps1 Wk (Proc.devRef .tc Cert.KernelIdeal.main_v46) (ix2 (0 : Fin 1) k) = x3 (ix1 k) := by
  have e : after Cert.KernelIdeal.Gen.hostOps1 Wk (Proc.devRef .tc Cert.KernelIdeal.main_v46)
      = shapeCast Cert.KernelIdeal.S1x64 x3 Cert.KernelIdeal.Facts₀.shapeCasts_S64_S1x64 := by
    after_results_simp
    rw [h]
    rfl
  rw [e]
  exact shapeCast_oneRow_apply _ x3 k

end Cert.HostStretch
-- ==== Proof.Host2.lean ====
/-
  The third host stretch: between its second and its third gridded region the kernel repeats the aggregation on the
  second layer's rows. It normalises the source indices, gathers the rows of relu(agg1 + b1)·W2 at them, scales each
  gathered row by its edge weight and scatter-adds the rows at the destination indices into a zero array; it also views
  the bias b2 as one row.

  Every one of those operations is the reference's own, applied to the same operands, so the aggregated array is the
  reference's stage as soon as the four arrays the stretch reads (the two index vectors, the edge weights and the
  second layer's rows) are the reference's stages. Nothing is computed: the two sides are the same composition of the
  same operations.
-/
import proofs.«153946_j34445637714219_1_alg».proof.Proof.Gen.KernelIdeal.Launch
import proofs.«153946_j34445637714219_1_alg».proof.Proof.RefReadP
import proofs.«153946_j34445637714219_1_alg».proof.Proof.LibAfter

noncomputable section

namespace Cert.HostStretch

open Idealize.ShloMosaic Idealize.ShloMosaic.TcCoe Idealize.SL.Sem Idealize.ShloMosaic.StableHlo Idealize.ShloMosaic.ValueIdx

variable {F : FTy → Type} [FloatOps F] (Wk : Valuation Cert.KernelIdeal.τ Cert.KernelIdeal.sig (Elt F))

/-- The buffers the third stretch writes, in program order. -/
abbrev written2 : List (Ref Cert.KernelIdeal.sig .tc) :=
  [Cert.KernelIdeal.main_c_10, Cert.KernelIdeal.main_v48, Cert.KernelIdeal.main_v49, Cert.KernelIdeal.main_c_11, Cert.KernelIdeal.main_v50, Cert.KernelIdeal.main_v51, Cert.KernelIdeal.main_v52, Cert.KernelIdeal.main_v53, Cert.KernelIdeal.main_v54, Cert.KernelIdeal.main_v55, Cert.KernelIdeal.main_v56, Cert.KernelIdeal.main_v57, Cert.KernelIdeal.main_cst_12, Cert.KernelIdeal.main_v58, Cert.KernelIdeal.main_v59, Cert.KernelIdeal.main_v60, Cert.KernelIdeal.main_v61]

/-- Each operation of the stretch writes one buffer, and it is on that list. -/
theorem writes2 :
    (Cert.KernelIdeal.Gen.hostOps2 (F := F)).Forall fun op =>
      op.writes ⊆ (written2.map (Proc.devRef (τ := Cert.KernelIdeal.τ) .tc)).toFinset := by
  simp only [Cert.KernelIdeal.Gen.hostOps2, List.Forall, StableHlo.nullary_writes, StableHlo.unary_writes,
    StableHlo.binary_writes, StableHlo.ternary_writes, StableHlo.reshape_writes, Finset.singleton_subset_iff,
    List.mem_toFinset]
  repeat' apply And.intro
  all_goals exact List.mem_map_of_mem (by decide)

/-- The stretch leaves the six arguments alone. -/
theorem s2_keep :
    ∀ b ∈ [Cert.KernelIdeal.main_arg0, Cert.KernelIdeal.main_arg1, Cert.KernelIdeal.main_arg2, Cert.KernelIdeal.main_arg3, Cert.KernelIdeal.main_arg4, Cert.KernelIdeal.main_arg5],
      after Cert.KernelIdeal.Gen.hostOps2 Wk (Proc.devRef .tc b) = Wk (Proc.devRef .tc b) :=
  fun b hb => after_of_writes_sub _ Wk writes2
    ((by decide : ∀ b ∈ [Cert.KernelIdeal.main_arg0, Cert.KernelIdeal.main_arg1, Cert.KernelIdeal.main_arg2, Cert.KernelIdeal.main_arg3, Cert.KernelIdeal.main_arg4, Cert.KernelIdeal.main_arg5], b ∉ written2) b hb)

/-- The second layer's aggregation: gather the rows at the normalised source indices, scale by the edge weights,
    scatter-add at the destination indices into zeros. Operation for operation the reference's. -/
theorem s2_v60 (x0 : (⟨Cert.ReferenceIdeal.S100000x256, .f32⟩ : BufTy).Contents (Elt F))
    (x1 : (⟨Cert.ReferenceIdeal.S2x1600000, .i32⟩ : BufTy).Contents (Elt F))
    (x2 : (⟨Cert.ReferenceIdeal.S256x64, .f32⟩ : BufTy).Contents (Elt F))
    (x3 : (⟨Cert.ReferenceIdeal.S64, .f32⟩ : BufTy).Contents (Elt F))
    (x4 : (⟨Cert.ReferenceIdeal.S64x40, .f32⟩ : BufTy).Contents (Elt F))
    (h3 : Wk (Proc.devRef .tc Cert.KernelIdeal.main_v3) = Cert.ReferenceIdeal.ReadP.val_main_v3 (F := F) x1)
    (h6 : Wk (Proc.devRef .tc Cert.KernelIdeal.main_v6) = Cert.ReferenceIdeal.ReadP.val_main_v6 (F := F) x1)
    (h31 : Wk (Proc.devRef .tc Cert.KernelIdeal.main_v31) = Cert.ReferenceIdeal.ReadP.val_main_v31 (F := F) x1)
    (h47 : Wk (Proc.devRef .tc Cert.KernelIdeal.main_v47) = Cert.ReferenceIdeal.ReadP.val_main_v50 (F := F) x0 x1 x2 x3 x4) :
    after Cert.KernelIdeal.Gen.hostOps2 Wk (Proc.devRef .tc Cert.KernelIdeal.main_v60)
      = Cert.ReferenceIdeal.ReadP.val_main_v63 (F := F) x0 x1 x2 x3 x4 := by
  after_results_simp
  rw [h3, h6, h31, h47]
  rfl

/-- A vector of n entries viewed as one row, read at (0, t), is entry t. -/
private theorem shapeCast_oneRow_apply {α : Type} {n : Nat} (hsc : (⟨1, ![n]⟩ : Shape).ShapeCasts (⟨2, ![1, n]⟩ : Shape))
    (z : (⟨1, ![n]⟩ : Shape).Idx → α) (t : Fin n) :
    shapeCast (⟨2, ![1, n]⟩ : Shape) z hsc (ix2 (0 : Fin 1) t) = z (ix1 t) :=
  (shapeCast_addUnit_apply ![n] z hsc (ix2 (0 : Fin 1) t)).trans
    (congrArg z (funext fun a => by fin_cases a; rfl))

/-- The bias b2 viewed as one row of 40: entry (0, k) is b2 at k. -/
theorem s2_v61 (x5 : (⟨Cert.ReferenceIdeal.S40, .f32⟩ : BufTy).Contents (Elt F))
    (h : Wk (Proc.devRef .tc Cert.KernelIdeal.main_arg5) = x5) (k : Fin 40) :
    after Cert.KernelIdeal.Gen.hostOps2 Wk (Proc.devRef .tc Cert.KernelIdeal.main_v61) (ix2 (0 : Fin 1) k) = x5 (ix1 k) := by
  have e : after Cert.KernelIdeal.Gen.hostOps2 Wk (Proc.devRef .tc Cert.KernelIdeal.main_v61)
      = shapeCast Cert.KernelIdeal.S1x40 x5 Cert.KernelIdeal.Facts₀.shapeCasts_S40_S1x40 := by
    after_results_simp
    rw [h]
    rfl
  rw [e]
  exact shapeCast_oneRow_apply _ x5 k

end Cert.HostStretch
-- ==== Proof.Final.lean ====
/-
  THE CHAIN: the idealized kernel's result array, followed through the eight segments of its run, is the reference's last
  stage of the launch arguments.

  The run folds buffer contents through five stretches of host operations and three kernel regions (the boundaries W0 … W8
  of the generated frame). At each boundary the buffers that later segments read are named as the reference's own stages of
  the arguments:
  * the first stretch builds the edge lists with self-loops (the source and target node of every edge) and the normalisation
    coefficient of every edge, from the edge-index argument alone;
  * region 0 writes x · W1, the reference's first `dot_general`;
  * the second stretch gathers its rows along the edges, scales them and adds them up per target node: the first layer's
    aggregated rows; it also lays the first bias out as a row, which only the kernel does;
  * region 1 writes relu (aggregated + b1) · W2, the reference's broadcast, addition, relu and second `dot_general`;
  * the third stretch aggregates again and lays the second bias out as a row;
  * region 2 writes the row-wise log-softmax of aggregated + b2, the reference's closing stages.
  A region leaves every buffer but its own arrays as it found them, and no host operation writes a buffer that a later
  segment reads from an earlier one, so each named fact travels to where it is used.
-/
import proofs.«153946_j34445637714219_1_alg».proof.Proof.KernelRun
import proofs.«153946_j34445637714219_1_alg».proof.Proof.Region0
import proofs.«153946_j34445637714219_1_alg».proof.Proof.Region1
import proofs.«153946_j34445637714219_1_alg».proof.Proof.Region2
import proofs.«153946_j34445637714219_1_alg».proof.Proof.RefDense
import proofs.«153946_j34445637714219_1_alg».proof.Proof.RefLogsm
import proofs.«153946_j34445637714219_1_alg».proof.Proof.Host0
import proofs.«153946_j34445637714219_1_alg».proof.Proof.Host1
import proofs.«153946_j34445637714219_1_alg».proof.Proof.Host2

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen Cert.HostStretch

variable (m : (ℓ : Loc nD τ sig) → Buf (Elt Ideal) ℓ) (ρ : Dev nD → PrngReg) (c : Dev nD)

/-- The launch contents of the six argument arrays. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ### Region 0's entry: the edge lists and the normalisation coefficients, the arguments as launched -/

theorem w3_v3 : W3 m ρ c (Proc.devRef .tc main_v3) = Cert.ReferenceIdeal.ReadP.val_main_v3 (F := Ideal) (a1 m c) :=
  s0_v3 (W0 m ρ c) (a1 m c) rfl
theorem w3_v6 : W3 m ρ c (Proc.devRef .tc main_v6) = Cert.ReferenceIdeal.ReadP.val_main_v6 (F := Ideal) (a1 m c) :=
  s0_v6 (W0 m ρ c) (a1 m c) rfl
theorem w3_v31 : W3 m ρ c (Proc.devRef .tc main_v31) = Cert.ReferenceIdeal.ReadP.val_main_v31 (F := Ideal) (a1 m c) :=
  s0_v31 (W0 m ρ c) (a1 m c) rfl
theorem w3_arg0 : W3 m ρ c (Proc.devRef .tc main_arg0) = a0 m c := (s0_keep (W0 m ρ c) main_arg0 (by decide)).trans rfl
theorem w3_arg2 : W3 m ρ c (Proc.devRef .tc main_arg2) = a2 m c := (s0_keep (W0 m ρ c) main_arg2 (by decide)).trans rfl
theorem w3_arg3 : W3 m ρ c (Proc.devRef .tc main_arg3) = a3 m c := (s0_keep (W0 m ρ c) main_arg3 (by decide)).trans rfl
theorem w3_arg4 : W3 m ρ c (Proc.devRef .tc main_arg4) = a4 m c := (s0_keep (W0 m ρ c) main_arg4 (by decide)).trans rfl
theorem w3_arg5 : W3 m ρ c (Proc.devRef .tc main_arg5) = a5 m c := (s0_keep (W0 m ρ c) main_arg5 (by decide)).trans rfl

/-! ### Region 0's exit: its output is the reference's first product; everything else is as at the entry -/

theorem w4_v32 : W4 m ρ c (Proc.devRef .tc main_v32) = Cert.ReferenceIdeal.ReadP.val_main_v32 (F := Ideal) (a0 m c) (a2 m c) :=
  (W4_arr m ρ c 2).trans ((Cert.KernelIdeal.Region0.value (V3 m ρ) c).trans (by
    rw [show V3 m ρ c main_arg0 = a0 m c from w3_arg0 m ρ c, show V3 m ρ c main_arg2 = a2 m c from w3_arg2 m ρ c]
    exact (Cert.ReferenceIdeal.RefDense.v32_dense1 _ _).symm))
theorem w4_v3 : W4 m ρ c (Proc.devRef .tc main_v3) = Cert.ReferenceIdeal.ReadP.val_main_v3 (F := Ideal) (a1 m c) :=
  (W4_of_ne m ρ c main_v3 (by decide)).trans (w3_v3 m ρ c)
theorem w4_v6 : W4 m ρ c (Proc.devRef .tc main_v6) = Cert.ReferenceIdeal.ReadP.val_main_v6 (F := Ideal) (a1 m c) :=
  (W4_of_ne m ρ c main_v6 (by decide)).trans (w3_v6 m ρ c)
theorem w4_v31 : W4 m ρ c (Proc.devRef .tc main_v31) = Cert.ReferenceIdeal.ReadP.val_main_v31 (F := Ideal) (a1 m c) :=
  (W4_of_ne m ρ c main_v31 (by decide)).trans (w3_v31 m ρ c)
theorem w4_arg3 : W4 m ρ c (Proc.devRef .tc main_arg3) = a3 m c := (W4_of_ne m ρ c main_arg3 (by decide)).trans (w3_arg3 m ρ c)
theorem w4_arg4 : W4 m ρ c (Proc.devRef .tc main_arg4) = a4 m c := (W4_of_ne m ρ c main_arg4 (by decide)).trans (w3_arg4 m ρ c)
theorem w4_arg5 : W4 m ρ c (Proc.devRef .tc main_arg5) = a5 m c := (W4_of_ne m ρ c main_arg5 (by decide)).trans (w3_arg5 m ρ c)

/-! ### Region 1's entry: the first layer's aggregated rows, the bias as a row -/

theorem w5_v45 : W5 m ρ c (Proc.devRef .tc main_v45) = Cert.ReferenceIdeal.ReadP.val_main_v45 (F := Ideal) (a0 m c) (a1 m c) (a2 m c) :=
  s1_v45 (W4 m ρ c) (a0 m c) (a1 m c) (a2 m c) (w4_v3 m ρ c) (w4_v6 m ρ c) (w4_v31 m ρ c) (w4_v32 m ρ c)
theorem w5_v46 (k : Fin 64) : W5 m ρ c (Proc.devRef .tc main_v46) (ix2 (0 : Fin 1) k) = a3 m c (ix1 k) :=
  s1_v46 (W4 m ρ c) (a3 m c) (w4_arg3 m ρ c) k
theorem w5_v3 : W5 m ρ c (Proc.devRef .tc main_v3) = Cert.ReferenceIdeal.ReadP.val_main_v3 (F := Ideal) (a1 m c) :=
  (s1_keep (W4 m ρ c) main_v3 (by decide)).trans (w4_v3 m ρ c)
theorem w5_v6 : W5 m ρ c (Proc.devRef .tc main_v6) = Cert.ReferenceIdeal.ReadP.val_main_v6 (F := Ideal) (a1 m c) :=
  (s1_keep (W4 m ρ c) main_v6 (by decide)).trans (w4_v6 m ρ c)
theorem w5_v31 : W5 m ρ c (Proc.devRef .tc main_v31) = Cert.ReferenceIdeal.ReadP.val_main_v31 (F := Ideal) (a1 m c) :=
  (s1_keep (W4 m ρ c) main_v31 (by decide)).trans (w4_v31 m ρ c)
theorem w5_arg4 : W5 m ρ c (Proc.devRef .tc main_arg4) = a4 m c := (s1_keep (W4 m ρ c) main_arg4 (by decide)).trans (w4_arg4 m ρ c)
theorem w5_arg5 : W5 m ρ c (Proc.devRef .tc main_arg5) = a5 m c := (s1_keep (W4 m ρ c) main_arg5 (by decide)).trans (w4_arg5 m ρ c)

/-! ### Region 1's exit: its output is the reference's second product -/

theorem w6_v47 : W6 m ρ c (Proc.devRef .tc main_v47)
    = Cert.ReferenceIdeal.ReadP.val_main_v50 (F := Ideal) (a0 m c) (a1 m c) (a2 m c) (a3 m c) (a4 m c) :=
  (W6_arr m ρ c 3).trans ((Cert.KernelIdeal.Region1.value (V5 m ρ) c (a3 m c) (w5_v46 m ρ c)).trans (by
    rw [show V5 m ρ c main_v45 = _ from w5_v45 m ρ c, show V5 m ρ c main_arg4 = a4 m c from w5_arg4 m ρ c]
    exact (Cert.ReferenceIdeal.RefDense.v50_dense2 _ _ _ _ _).symm))
theorem w6_v3 : W6 m ρ c (Proc.devRef .tc main_v3) = Cert.ReferenceIdeal.ReadP.val_main_v3 (F := Ideal) (a1 m c) :=
  (W6_of_ne m ρ c main_v3 (by decide)).trans (w5_v3 m ρ c)
theorem w6_v6 : W6 m ρ c (Proc.devRef .tc main_v6) = Cert.ReferenceIdeal.ReadP.val_main_v6 (F := Ideal) (a1 m c) :=
  (W6_of_ne m ρ c main_v6 (by decide)).trans (w5_v6 m ρ c)
theorem w6_v31 : W6 m ρ c (Proc.devRef .tc main_v31) = Cert.ReferenceIdeal.ReadP.val_main_v31 (F := Ideal) (a1 m c) :=
  (W6_of_ne m ρ c main_v31 (by decide)).trans (w5_v31 m ρ c)
theorem w6_arg5 : W6 m ρ c (Proc.devRef .tc main_arg5) = a5 m c := (W6_of_ne m ρ c main_arg5 (by decide)).trans (w5_arg5 m ρ c)

/-! ### Region 2's entry and exit: the second layer's aggregated rows, and their log-softmax -/

theorem w7_v60 : W7 m ρ c (Proc.devRef .tc main_v60)
    = Cert.ReferenceIdeal.ReadP.val_main_v63 (F := Ideal) (a0 m c) (a1 m c) (a2 m c) (a3 m c) (a4 m c) :=
  s2_v60 (W6 m ρ c) (a0 m c) (a1 m c) (a2 m c) (a3 m c) (a4 m c) (w6_v3 m ρ c) (w6_v6 m ρ c) (w6_v31 m ρ c) (w6_v47 m ρ c)
theorem w7_v61 (k : Fin 40) : W7 m ρ c (Proc.devRef .tc main_v61) (ix2 (0 : Fin 1) k) = a5 m c (ix1 k) :=
  s2_v61 (W6 m ρ c) (a5 m c) (w6_arg5 m ρ c) k

/-- THE RESULT: the kernel's result array at the last boundary is the reference's last stage of the launch arguments. -/
theorem result_eq : W8 m ρ c (Proc.devRef .tc main_v62)
    = Cert.ReferenceIdeal.ReadP.val_main_v67 (F := Ideal) (a0 m c) (a1 m c) (a2 m c) (a3 m c) (a4 m c) (a5 m c) :=
  (W8_arr m ρ c 2).trans ((Cert.KernelIdeal.Region2.value (V7 m ρ) c (a5 m c) (w7_v61 m ρ c)).trans (by
    rw [show V7 m ρ c main_v60 = _ from w7_v60 m ρ c]
    exact (Cert.ReferenceIdeal.RefLogsm.v67_logsm _ _ _ _ _ _).symm))

end Cert.KernelIdeal.Chain

end
-- ==== Proof.lean ====
/-
  A two-layer graph convolution with a log-softmax head over 100000 nodes and 1.7 million edges (self-loops included): the
  kernel against its jnp reference, over the extended reals.

  Both programs normalise the edge list, count degrees and form the symmetric coefficients by the same host operations, and
  both aggregate each layer by the same gather, scale and scatter-add of rows along the edges. They differ in three dense
  stages, which the kernel computes in blocks of 5000 rows inside three kernel regions and the reference by whole-array
  operations: x · W1 (a block product into a zero accumulator against one `dot_general`), relu (agg + b1) · W2 (bias, maximum
  with zero and product fused against broadcast, add, relu, `dot_general`) and the row-wise log-softmax of agg + b2 (the
  reference takes one more maximum with −∞, the identity on the extended reals). Every entry of those three results depends on
  one row of the row-blocked operand only, a change of float format is the identity, and a sum is a sum in any grouping: so the
  two programs compute the same array, and no finiteness of the inputs is used.

  The frames of the two kernel programs are the generated frame certificates; the reference's frame and value are its run,
  read back operation by operation; the kernel's value is the chain of Proof/Final.lean.
-/
import proofs.«153946_j34445637714219_1_alg».proof.Defs
import proofs.«153946_j34445637714219_1_alg».proof.Proof.Gen.Kernel
import proofs.«153946_j34445637714219_1_alg».proof.Proof.Gen.Kernel.Skeleton
import proofs.«153946_j34445637714219_1_alg».proof.Proof.Gen.Kernel.Launch
import proofs.«153946_j34445637714219_1_alg».proof.Proof.Gen.Kernel.Points
import proofs.«153946_j34445637714219_1_alg».proof.Proof.Gen.Kernel.Frame
import proofs.«153946_j34445637714219_1_alg».proof.Proof.Gen.KernelIdeal
import proofs.«153946_j34445637714219_1_alg».proof.Proof.Gen.KernelIdeal.Skeleton
import proofs.«153946_j34445637714219_1_alg».proof.Proof.Gen.KernelIdeal.Launch
import proofs.«153946_j34445637714219_1_alg».proof.Proof.Gen.KernelIdeal.Points
import proofs.«153946_j34445637714219_1_alg».proof.Proof.Gen.KernelIdeal.Frame
import proofs.«153946_j34445637714219_1_alg».proof.Proof.Gen.ReferenceIdeal
import proofs.«153946_j34445637714219_1_alg».proof.Proof.Gen.Pre_finite_inputs
import proofs.«153946_j34445637714219_1_alg».proof.Proof.RefRunQ
import proofs.«153946_j34445637714219_1_alg».proof.Proof.RefReadP
import proofs.«153946_j34445637714219_1_alg».proof.Proof.Final
import Idealize.ShloMosaic.Adequacy
import Idealize.ShloMosaic.Init

noncomputable section

namespace Cert.Proof

open Idealize.ShloMosaic Idealize.SL.Sem

/-- The word-level kernel's frame: the generated frame certificate. -/
theorem frame_kernel : Cert.frame_Kernel := fun m ρ _ => Cert.Kernel.Gen.frame m ρ

/-- The idealized kernel's frame: the generated frame certificate. -/
theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- Both programs end with the result array at the reference's last stage of the launch arguments: the kernel by the chain
    through its eight segments, the reference by its own run; the two launches agree on the arguments. -/
theorem algebraic : Cert.algebraic_KernelIdeal_ReferenceIdeal := by
  intro m ρ m' ρ' _ hagree
  refine ⟨fun c => Cert.ReferenceIdeal.ReadP.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
